-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KDefs.lean ====
/-
  The kernel program's mean aggregation, as a function of abstract operands.

  The kernel's @main computes the aggregate of each layer on the host, before that layer's pallas_call, by the same
  chain of operations as the reference: gather the rows of `x` at the (wrapped) source indices `s`, scatter-add them
  into 50000 buckets at the destination indices `d`, divide each bucket by `max (its in-degree) 1`. `src` / `dst` cut
  the two rows out of the 2 × 800000 edge list. The chain is carried as one function and never opened.
-/
import proofs.«158803_j83803401879709_1_alg».proof.Proof.Gen.KernelIdeal

noncomputable section

namespace Cert.KernelIdeal.KValue

open Cert.KernelIdeal Cert.KernelIdeal.Gen Idealize.ShloMosaic

variable {F : FTy → Type} [FloatOps F]

/-- Row 0 of the edge list: the source node of each edge. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destination node of each edge. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Mean aggregation of the rows of `x` over the edges `s → d`: bucket sums divided by `max degree 1`. -/
def agg (x : (⟨S50000x128, .f32⟩ : BufTy).Contents (Elt F)) (s d : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

end Cert.KernelIdeal.KValue

end
-- ==== Proof.KFold.lean ====
/-
  The kernel program's buffers, read back through its four segments.

  @main runs a stretch of host operations (the edge list's two rows and the first layer's aggregate), the first
  layer's pallas_call, a second stretch (the second layer's aggregate, of the first layer's output) and the second
  layer's pallas_call. The buffer contents at each boundary are a fold from the launch memory; here each buffer a
  later segment reads is read back to a function of the ARGUMENTS: the aggregate is `agg` of what it is computed
  from, a pallas_call's weights and bias are the arguments untouched, and a pallas_call's output array is what its
  write-backs leave (kept as `arrAt`: which function that is, is another file's concern).
-/
import proofs.«158803_j83803401879709_1_alg».proof.Proof.Gen.KernelIdeal.Frame
import proofs.«158803_j83803401879709_1_alg».proof.Proof.KDefs

noncomputable section

namespace Cert.KernelIdeal.KValue

open Cert.KernelIdeal Cert.KernelIdeal.Gen Idealize.ShloMosaic Idealize.ShloMosaic.TcCoe Idealize.SL.Sem
open Idealize.ShloMosaic.StableHlo (after)

variable {F : FTy → Type} [FloatOps F]

/-! ## The two host stretches over any contents -/

/-- The first stretch leaves the source indices in `main_v1`, -/
theorem stretch0_v1 (W : Valuation τ sig (Elt F)) :
    StableHlo.after hostOps0 W (Proc.devRef .tc main_v1) = src (W (Proc.devRef .tc main_arg1)) := by
  after_results_simp <;> rfl

/-- the destination indices in `main_v3`, -/
theorem stretch0_v3 (W : Valuation τ sig (Elt F)) :
    StableHlo.after hostOps0 W (Proc.devRef .tc main_v3) = dst (W (Proc.devRef .tc main_arg1)) := by
  after_results_simp <;> rfl

set_option maxHeartbeats 2000000 in
/-- and the aggregate of the node features `main_arg0` in `main_v22`. -/
theorem stretch0_v22 (W : Valuation τ sig (Elt F)) :
    StableHlo.after hostOps0 W (Proc.devRef .tc main_v22)
      = agg (W (Proc.devRef .tc main_arg0)) (src (W (Proc.devRef .tc main_arg1))) (dst (W (Proc.devRef .tc main_arg1))) := by
  after_results_simp <;> rfl

set_option maxHeartbeats 2000000 in
/-- The second stretch leaves in `main_v42` the aggregate of `main_v23` over the indices the first stretch left. -/
theorem stretch1_v42 (W : Valuation τ sig (Elt F)) :
    StableHlo.after hostOps1 W (Proc.devRef .tc main_v42)
      = agg (W (Proc.devRef .tc main_v23)) (W (Proc.devRef .tc main_v1)) (W (Proc.devRef .tc main_v3)) := by
  after_results_simp <;> rfl

/-- The first stretch writes none of the arguments the first pallas_call reads, -/
theorem stretch0_arg0 (W : Valuation τ sig (Elt F)) :
    StableHlo.after hostOps0 W (Proc.devRef .tc main_arg0) = W (Proc.devRef .tc main_arg0) := by
  after_results_simp
theorem stretch0_arg2 (W : Valuation τ sig (Elt F)) :
    StableHlo.after hostOps0 W (Proc.devRef .tc main_arg2) = W (Proc.devRef .tc main_arg2) := by
  after_results_simp
theorem stretch0_arg3 (W : Valuation τ sig (Elt F)) :
    StableHlo.after hostOps0 W (Proc.devRef .tc main_arg3) = W (Proc.devRef .tc main_arg3) := by
  after_results_simp
theorem stretch0_arg4 (W : Valuation τ sig (Elt F)) :
    StableHlo.after hostOps0 W (Proc.devRef .tc main_arg4) = W (Proc.devRef .tc main_arg4) := by
  after_results_simp
/-- nor those the second reads; -/
theorem stretch0_arg5 (W : Valuation τ sig (Elt F)) :
    StableHlo.after hostOps0 W (Proc.devRef .tc main_arg5) = W (Proc.devRef .tc main_arg5) := by
  after_results_simp
theorem stretch0_arg6 (W : Valuation τ sig (Elt F)) :
    StableHlo.after hostOps0 W (Proc.devRef .tc main_arg6) = W (Proc.devRef .tc main_arg6) := by
  after_results_simp
theorem stretch0_arg7 (W : Valuation τ sig (Elt F)) :
    StableHlo.after hostOps0 W (Proc.devRef .tc main_arg7) = W (Proc.devRef .tc main_arg7) := by
  after_results_simp

/-- the second stretch writes neither the first layer's output nor the second layer's weights and bias. -/
theorem stretch1_v23 (W : Valuation τ sig (Elt F)) :
    StableHlo.after hostOps1 W (Proc.devRef .tc main_v23) = W (Proc.devRef .tc main_v23) := by
  after_results_simp
theorem stretch1_arg5 (W : Valuation τ sig (Elt F)) :
    StableHlo.after hostOps1 W (Proc.devRef .tc main_arg5) = W (Proc.devRef .tc main_arg5) := by
  after_results_simp
theorem stretch1_arg6 (W : Valuation τ sig (Elt F)) :
    StableHlo.after hostOps1 W (Proc.devRef .tc main_arg6) = W (Proc.devRef .tc main_arg6) := by
  after_results_simp
theorem stretch1_arg7 (W : Valuation τ sig (Elt F)) :
    StableHlo.after hostOps1 W (Proc.devRef .tc main_arg7) = W (Proc.devRef .tc main_arg7) := by
  after_results_simp

/-! ## What each pallas_call finds in the arrays of its windows -/

variable (m : (ℓ : Loc nD τ sig) → Buf (Elt F) ℓ) (ρ : Dev nD → PrngReg)

/-- The first layer's output array when the first pallas_call has returned: what its write-backs leave. -/
abbrev hidden (c : Dev nD) : Buf (Elt F) ((c : Thread nD τ).loc main_v23) := (dat0 (V1 m ρ) c).arrAt 5 cfg0.N

/-- The first pallas_call finds the aggregate of the node features, -/
theorem V1_v22 (c : Dev nD) :
    V1 m ρ c main_v22 = agg (m ((c : Thread nD τ).loc main_arg0)) (src (m ((c : Thread nD τ).loc main_arg1)))
      (dst (m ((c : Thread nD τ).loc main_arg1))) :=
  stretch0_v22 (W0 m ρ c)
/-- the node features, the first layer's weights and its bias as launched. -/
theorem V1_arg0 (c : Dev nD) : V1 m ρ c main_arg0 = m ((c : Thread nD τ).loc main_arg0) := stretch0_arg0 (W0 m ρ c)
theorem V1_arg2 (c : Dev nD) : V1 m ρ c main_arg2 = m ((c : Thread nD τ).loc main_arg2) := stretch0_arg2 (W0 m ρ c)
theorem V1_arg3 (c : Dev nD) : V1 m ρ c main_arg3 = m ((c : Thread nD τ).loc main_arg3) := stretch0_arg3 (W0 m ρ c)
theorem V1_arg4 (c : Dev nD) : V1 m ρ c main_arg4 = m ((c : Thread nD τ).loc main_arg4) := stretch0_arg4 (W0 m ρ c)

/-- The first pallas_call's output array at its exit, by name. -/
theorem W2_v23 (c : Dev nD) : W2 m ρ c (Proc.devRef .tc main_v23) = hidden m ρ c := W2_arr m ρ c 5

/-- The second pallas_call finds the first layer's output, -/
theorem V3_v23 (c : Dev nD) : V3 m ρ c main_v23 = hidden m ρ c :=
  (stretch1_v23 (W2 m ρ c)).trans (W2_v23 m ρ c)

/-- its aggregate over the same edges, -/
theorem V3_v42 (c : Dev nD) :
    V3 m ρ c main_v42 = agg (hidden m ρ c) (src (m ((c : Thread nD τ).loc main_arg1))) (dst (m ((c : Thread nD τ).loc main_arg1))) := by
  refine (stretch1_v42 (W2 m ρ c)).trans ?_
  rw [W2_v23, W2_of_ne m ρ c main_v1 (by decide), W2_of_ne m ρ c main_v3 (by decide)]
  rw [show W1 m ρ c (Proc.devRef .tc main_v1) = src (m ((c : Thread nD τ).loc main_arg1)) from stretch0_v1 (W0 m ρ c),
    show W1 m ρ c (Proc.devRef .tc main_v3) = dst (m ((c : Thread nD τ).loc main_arg1)) from stretch0_v3 (W0 m ρ c)]

/-- and the second layer's weights and bias as launched. -/
theorem V3_arg5 (c : Dev nD) : V3 m ρ c main_arg5 = m ((c : Thread nD τ).loc main_arg5) :=
  (stretch1_arg5 (W2 m ρ c)).trans ((W2_of_ne m ρ c main_arg5 (by decide)).trans (stretch0_arg5 (W0 m ρ c)))
theorem V3_arg6 (c : Dev nD) : V3 m ρ c main_arg6 = m ((c : Thread nD τ).loc main_arg6) :=
  (stretch1_arg6 (W2 m ρ c)).trans ((W2_of_ne m ρ c main_arg6 (by decide)).trans (stretch0_arg6 (W0 m ρ c)))
theorem V3_arg7 (c : Dev nD) : V3 m ρ c main_arg7 = m ((c : Thread nD τ).loc main_arg7) :=
  (stretch1_arg7 (W2 m ρ c)).trans ((W2_of_ne m ρ c main_arg7 (by decide)).trans (stretch0_arg7 (W0 m ρ c)))

/-- The result buffer at the last boundary is the second pallas_call's output array at what its write-backs leave. -/
theorem W4_v43 (c : Dev nD) : W4 m ρ c (Proc.devRef .tc main_v43) = (dat1 (V3 m ρ) c).arrAt 5 cfg1.N := W4_arr m ρ c 5

end Cert.KernelIdeal.KValue

end
-- ==== Proof.KRun.lean ====
/-
  The kernel program's run with its RESULT named.

  Every weakly fair execution of @main terminates, nothing faulting, with the arguments unchanged AND the result buffer
  `main_v43` holding what the last segment boundary's contents say it holds (`W4`: the second pallas_call's output
  array at what its write-backs leave). It is the launch over @main's four segments that proves the frame, read at
  one more buffer: the last thread state holds EVERY unscoped buffer at the last boundary's contents, and the result
  buffer is one of them.
-/
import proofs.«158803_j83803401879709_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read off the last thread state beside the arguments. -/
theorem run_named : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KValue

end
-- ==== Proof.Spec.lean ====
/-
  One GraphSAGE layer with mean aggregation, as a function on the extended reals, entry by entry.

  For node features `X` (50000 nodes, 128 features each), an aggregate `A` of the same shape (row `r` holds the
  mean of the features of node `r`'s in-neighbours; how it is computed is no concern of this file), two 128 × 128
  weight matrices `Wl`, `Wr` and a bias `b`, the layer's output at node `r`, feature `c` is

      relu (⟨A r, Wl c⟩ + ⟨X r, Wr c⟩ + b c),   ⟨u, v⟩ = ∑ k, u k · v k   (both weights used transposed).

  `cell` is that number from the two rows, the two weight rows and the bias entry; `layer` reads the rows off the
  arrays. The only algebra either program needs is that a sum of three extended reals may be regrouped
  (`cell_bias_mid`): addition on the extended reals is commutative and associative, also at the infinities, so no
  finiteness is used anywhere.
-/
import Idealize.ShloMosaic.PureOps.Ideal
import Idealize.ShloMosaic.Lib.ValueIdx

noncomputable section

namespace Sage

open Idealize.ShloMosaic Idealize.ShloMosaic.ValueIdx

/-- Node features: 50000 nodes, 128 features. -/
abbrev SN : Shape := ⟨2, ![50000, 128]⟩
/-- A weight matrix: 128 outputs by 128 inputs. -/
abbrev SW : Shape := ⟨2, ![128, 128]⟩
/-- A bias vector. -/
abbrev SB : Shape := ⟨1, ![128]⟩

/-- One output entry: `relu (⟨ra, wl⟩ + ⟨rx, wr⟩ + b)` from the aggregate's row `ra`, the node's own row `rx`, the two
    weight rows and the bias entry. -/
def cell (ra rx wl wr : Fin 128 → EReal) (b : EReal) : EReal :=
  max ((∑ k : Fin 128, ra k * wl k) + (∑ k : Fin 128, rx k * wr k) + b) 0

/-- The same entry with the bias added before the node's own product: `(⟨ra, wl⟩ + b) + ⟨rx, wr⟩`. Regrouping a sum of
    three extended reals needs no finiteness. -/
theorem cell_bias_mid (ra rx wl wr : Fin 128 → EReal) (b : EReal) :
    max (((∑ k : Fin 128, ra k * wl k) + b) + (∑ k : Fin 128, rx k * wr k)) 0 = cell ra rx wl wr b := by
  unfold cell
  rw [add_right_comm]

/-- The layer on whole arrays: entry `(r, c)` is `cell` of row `r` of `A` and of `X`, row `c` of `Wl` and of `Wr`, and
    `b c`. -/
def layer (A X : FVec Ideal SN .f32) (Wl Wr : FVec Ideal SW .f32) (b : FVec Ideal SB .f32) : FVec Ideal SN .f32 :=
  fun i =>
    cell (fun k => A (ix2 (i 0 : Fin 50000) k)) (fun k => X (ix2 (i 0 : Fin 50000) k))
      (fun k => Wl (ix2 (i 1 : Fin 128) k)) (fun k => Wr (ix2 (i 1 : Fin 128) k)) (b (ix1 (i 1 : Fin 128)))

/-- `layer` at explicit coordinates. -/
theorem layer_apply (A X : FVec Ideal SN .f32) (Wl Wr : FVec Ideal SW .f32) (b : FVec Ideal SB .f32)
    (r : Fin 50000) (c : Fin 128) :
    layer A X Wl Wr b (ix2 r c) =
      cell (fun k => A (ix2 r k)) (fun k => X (ix2 r k)) (fun k => Wl (ix2 c k)) (fun k => Wr (ix2 c k)) (b (ix1 c)) := rfl

end Sage

end
-- ==== Proof.KLayerPay.lean ====
/-
  The arithmetic of one GraphSAGE layer's kernel body, read entry by entry on the extended reals.

  The body receives a block of 5000 rows of the aggregate and of the node features, the two 128 × 128 weight
  matrices and the bias, and stores

      max ((A · Wlᵀ + X · Wrᵀ) + b, 0)

  where each product contracts axis 1 of BOTH operands (so the weights are used transposed without a transpose being
  computed), the bias is viewed as a 1 × 128 row and repeated down the 5000 rows, and the changes of float format are
  the identity on extended reals. At row `p`, column `q` that is `Sage.cell` of row `p` of the two blocks, row `q` of
  the two weights and entry `q` of the bias.
-/
import proofs.«158803_j83803401879709_1_alg».proof.Proof.Gen.KernelIdeal.Skeleton
import proofs.«158803_j83803401879709_1_alg».proof.Proof.Spec
import Idealize.ShloMosaic.Lib.Pipeline.Value
import Idealize.ShloMosaic.PureOps.Ideal.Laws

noncomputable section
namespace Cert.KernelIdeal.KLayer
open Cert.KernelIdeal Cert.KernelIdeal.Gen Idealize.ShloMosaic Idealize.ShloMosaic.ValueIdx

/-- On the left operand's kept axis the operand index is the output's row. -/
theorem lhs_kept (i : S5000x128.Idx) (κ : dot_S5000x128_S128x128_S5000x128_1_1_0_0_n_n.contr.Idx) :
    (dot_S5000x128_S128x128_S5000x128_1_1_0_0_n_n.lhsIdx i κ 0).val = (i 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl

/-- On the right operand's kept axis (its axis 0: the weight is used transposed) the operand index is the output's
    column. -/
theorem rhs_kept (i : S5000x128.Idx) (κ : dot_S5000x128_S128x128_S5000x128_1_1_0_0_n_n.contr.Idx) :
    (dot_S5000x128_S128x128_S5000x128_1_1_0_0_n_n.rhsIdx i κ 0).val = (i 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl

/-- A product contracting axis 1 of both operands, accumulated into zeros: entry `(p, q)` is the inner product of row
    `p` of the left operand with row `q` of the right one. -/
theorem matmul_rows (l : FVec Ideal S5000x128 .bf16) (w : FVec Ideal S128x128 .bf16) (p : Fin 5000) (q : Fin 128) :
    matmul dot_S5000x128_S128x128_S5000x128_1_1_0_0_n_n none l w (constant (F := Ideal) S5000x128 .f32 0x00000000#32) (ix2 p q)
      = ∑ k : Fin 128, l (ix2 p k) * w (ix2 q k) := by
  simp only [matmul]
  rw [Ideal.matmul_constant_zero_apply,
    ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q)
      ((contrEquiv1 dot_S5000x128_S128x128_S5000x128_1_1_0_0_n_n 128 rfl rfl).symm k) = ix2 p k :=
    funext fun a => Fin.ext (by
      match a with
      | ⟨0, _⟩ => exact lhs_kept _ _
      | ⟨1, _⟩ => exact (dot_S5000x128_S128x128_S5000x128_1_1_0_0_n_n.lhsIdx_val_of_single rfl _ _).trans hk)
  have er : dot_S5000x128_S128x128_S5000x128_1_1_0_0_n_n.rhsIdx (ix2 p q)
      ((contrEquiv1 dot_S5000x128_S128x128_S5000x128_1_1_0_0_n_n 128 rfl rfl).symm k) = ix2 q k :=
    funext fun a => Fin.ext (by
      match a with
      | ⟨0, _⟩ => exact rhs_kept _ _
      | ⟨1, _⟩ => exact (dot_S5000x128_S128x128_S5000x128_1_1_0_0_n_n.rhsIdx_val_of_single rfl _ _).trans hk)
  rw [el, er]

/-- The bias viewed as a 1 × 128 row and repeated down the 5000 rows: entry `(p, q)` is the bias at `q`. -/
theorem bias_rows (b : S128.Idx → EReal) (h1 : S128.ShapeCasts S1x128) (h2 : S1x128.Broadcasts S5000x128)
    (p : Fin 5000) (q : Fin 128) :
    broadcastTo S5000x128 (shapeCast S1x128 b h1) h2 (ix2 p q) = b (ix1 q) := by
  refine (broadcastTo_apply (shapeCast S1x128 b h1) h2 (ix2 p q) (ix2 (0 : Fin 1) q) (fun a => ?_)).trans ?_
  · match a with
    | ⟨0, _⟩ => rfl
    | ⟨1, _⟩ => rfl
  · refine (shapeCast_addUnit_apply ![128] b h1 (ix2 (0 : Fin 1) q)).trans ?_
    exact congrArg b (funext fun a => match a with | ⟨0, _⟩ => rfl)

/-- The first layer's stored value at row `p`, column `q` of the block. -/
theorem k0_pay1_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = Sage.cell (fun k => x0 (ix2 p k)) (fun k => x1 (ix2 p k)) (fun k => x2 (ix2 q k)) (fun k => x3 (ix2 q k))
          (x4 (ix1 q)) := by
  unfold k0_pay1 Sage.cell
  refine (maximumf_apply _ _ _).trans (congrArg₂ max ?_ Ideal.ofBits_zero_f32)
  refine (addf_apply _ _ _).trans (congrArg₂ (· + ·) ?_ (bias_rows x4 _ _ p q))
  refine (addf_apply _ _ _).trans (congrArg₂ (· + ·) ?_ ?_)
  · refine (matmul_rows _ _ p q).trans (Finset.sum_congr rfl fun k _ => ?_)
    exact congrArg (· * x2 (ix2 q k)) (congrFun (shapeCast_self x0 _) (ix2 p k))
  · exact matmul_rows _ _ p q

/-- The second layer's stored value at row `p`, column `q` of the block: the same entry. -/
theorem k1_pay1_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = Sage.cell (fun k => x0 (ix2 p k)) (fun k => x1 (ix2 p k)) (fun k => x2 (ix2 q k)) (fun k => x3 (ix2 q k))
          (x4 (ix1 q)) := by
  unfold k1_pay1 Sage.cell
  refine (maximumf_apply _ _ _).trans (congrArg₂ max ?_ Ideal.ofBits_zero_f32)
  refine (addf_apply _ _ _).trans (congrArg₂ (· + ·) ?_ (bias_rows x4 _ _ p q))
  refine (addf_apply _ _ _).trans (congrArg₂ (· + ·) ?_ ?_)
  · refine (matmul_rows _ _ p q).trans (Finset.sum_congr rfl fun k _ => ?_)
    exact congrArg (· * x2 (ix2 q k)) (congrFun (shapeCast_self x0 _) (ix2 p k))
  · refine (matmul_rows _ _ p q).trans (Finset.sum_congr rfl fun k _ => ?_)
    exact congrArg (· * x3 (ix2 q k)) (congrFun (shapeCast_self x1 _) (ix2 p k))

/-- If the five blocks hold, along row `p` and at column `q`, what the arrays hold along row `r` and at column `q`, the
    first layer's stored value at `(p, q)` is the layer's entry `(r, q)`. -/
theorem k0_pay1_layer (A X : FVec Ideal Sage.SN .f32) (Wl Wr : FVec Ideal Sage.SW .f32) (b : FVec Ideal Sage.SB .f32)
    (x0 x1 : Vec Ideal S5000x128 .f32) (x2 x3 : Vec Ideal S128x128 .f32) (x4 : Vec Ideal S128 .f32)
    (r : Fin 50000) (p : Fin 5000) (q : Fin 128)
    (h0 : ∀ k : Fin 128, x0 (ix2 p k) = A (ix2 r k)) (h1 : ∀ k : Fin 128, x1 (ix2 p k) = X (ix2 r k))
    (h2 : ∀ k : Fin 128, x2 (ix2 q k) = Wl (ix2 q k)) (h3 : ∀ k : Fin 128, x3 (ix2 q k) = Wr (ix2 q k))
    (h4 : x4 (ix1 q) = b (ix1 q)) :
    k0_pay1 (F := Ideal) x0 x1 x2 x3 x4 (ix2 p q) = Sage.layer A X Wl Wr b (ix2 r q) := by
  rw [k0_pay1_apply, Sage.layer_apply]
  simp only [h0, h1, h2, h3, h4]

/-- The same for the second layer's stored value. -/
theorem k1_pay1_layer (A X : FVec Ideal Sage.SN .f32) (Wl Wr : FVec Ideal Sage.SW .f32) (b : FVec Ideal Sage.SB .f32)
    (x0 x1 : Vec Ideal S5000x128 .f32) (x2 x3 : Vec Ideal S128x128 .f32) (x4 : Vec Ideal S128 .f32)
    (r : Fin 50000) (p : Fin 5000) (q : Fin 128)
    (h0 : ∀ k : Fin 128, x0 (ix2 p k) = A (ix2 r k)) (h1 : ∀ k : Fin 128, x1 (ix2 p k) = X (ix2 r k))
    (h2 : ∀ k : Fin 128, x2 (ix2 q k) = Wl (ix2 q k)) (h3 : ∀ k : Fin 128, x3 (ix2 q k) = Wr (ix2 q k))
    (h4 : x4 (ix1 q) = b (ix1 q)) :
    k1_pay1 (F := Ideal) x0 x1 x2 x3 x4 (ix2 p q) = Sage.layer A X Wl Wr b (ix2 r q) := by
  rw [k1_pay1_apply, Sage.layer_apply]
  simp only [h0, h1, h2, h3, h4]

/-- The body's rectangles start at offset zero on both axes of a matrix … -/
theorem zero2 : (![0, 0] : Fin 2 → Nat) = fun _ => 0 := funext fun a => by fin_cases a <;> rfl
/-- … and on the bias's one axis. -/
theorem zero1 : (![0] : Fin 1 → Nat) = fun _ => 0 := funext fun a => by fin_cases a <;> rfl

end Cert.KernelIdeal.KLayer
end
-- ==== Proof.KLayer0.lean ====
/-
  The first pallas_call region, block by block. The region walks the 50000 rows in ten blocks of 5000. At point `t`
  the body sees rows `5000 t … 5000 t + 4999` of the aggregate and of the node features and the whole weights and bias,
  and stores, at `(p, q)` of its block, `Sage.cell` of row `p` of the two blocks, row `q` of the weights and entry `q`
  of the bias: entry `(5000 t + p, q)` of `Sage.layer` of the arrays the region found. Every point writes its block
  back, and the ten blocks cover the output (row `r` lies in block `r / 5000`).
-/
import proofs.«158803_j83803401879709_1_alg».proof.Proof.Gen.KernelIdeal.Frame
import proofs.«158803_j83803401879709_1_alg».proof.Proof.Spec
import Idealize.ShloMosaic.Lib.Pipeline.Value
import proofs.«158803_j83803401879709_1_alg».proof.Proof.KLayerPay
noncomputable section
namespace Cert.KernelIdeal.KLayer
open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## first layer's region -/

/-- The printed index maps of the first region, decided once over its ten points: the two row-blocked inputs and
    the output sit at block `t` along the rows and block 0 along the features; the weights and the bias are whole. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is rows `5000 t … 5000 t + 4999` of the layer of the arrays the region finds: the
    stored value at `(p, q)` of the block is the layer's entry `(5000 t + p, q)`, because each row-blocked input's
    block holds rows `5000 t + p` of its array and the weights' and the bias's blocks are the arrays themselves. -/
theorem flushed0_eq (c : Dev nD) (t : Fin cfg0.N) :
    (dat0 (F := Ideal) V c).flushed 5 t
      = ((cfg0.win 5).blk t).view.read (Elt Ideal)
          (Sage.layer (V c main_v22) (V c main_arg0) (V c main_arg2) (V c main_arg4) (V c main_arg3)) := by
  show (cfg0.win 5).cut (grid0.coords t) ((dat0 (F := Ideal) V c).after 5 t) = _
  rw [after0_5]
  unfold out0_5
  rw [View.canon_unit_zero zero2]
  simp only [View.ld_unit_zero (S := S5000x128) zero2, View.ld_unit_zero (S := S128x128) zero2,
    View.ld_unit_zero (S := S128) zero1]
  obtain ⟨e00, e01, e10, e11, e20, e21, e30, e31, e40, e50, e51⟩ := idx0 t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  show k0_pay1 (F := Ideal) (iblk0 V c 0 t) (iblk0 V c 1 t) (iblk0 V c 2 t) (iblk0 V c 3 t) (iblk0 V c 4 t) (ix2 p q)
      = Sage.layer (V c main_v22) (V c main_arg0) (V c main_arg2) (V c main_arg4) (V c main_arg3)
          (((cfg0.win 5).blk t).view.emb (ix2 p q))
  have hemb : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega
  refine (k0_pay1_layer (V c main_v22) (V c main_arg0) (V c main_arg2) (V c main_arg4) (V c main_arg3)
    (iblk0 V c 0 t) (iblk0 V c 1 t) (iblk0 V c 2 t) (iblk0 V c 3 t) (iblk0 V c 4 t)
    (⟨t.val * 5000 + p.val, hr⟩ : Fin 50000) p q ?_ ?_ ?_ ?_ ?_).trans
    (congrArg (Sage.layer (V c main_v22) (V c main_arg0) (V c main_arg2) (V c main_arg4) (V c main_arg3)) hemb.symm)
  · intro k
    show V c main_v22 (((cfg0.win 0).blk t).view.emb (ix2 p k)) = V c main_v22 (ix2 (⟨t.val * 5000 + p.val, hr⟩ : Fin 50000) k)
    refine congrArg (V c main_v22) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro k
    show V c main_arg0 (((cfg0.win 1).blk t).view.emb (ix2 p k)) = V c main_arg0 (ix2 (⟨t.val * 5000 + p.val, hr⟩ : Fin 50000) k)
    refine congrArg (V c main_arg0) (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  · intro k
    show V c main_arg2 (((cfg0.win 2).blk t).view.emb (ix2 q k)) = V c main_arg2 (ix2 q k)
    refine congrArg (V c main_arg2) (funext fun a => Fin.ext ?_)
    match a with
    | ⟨0, _⟩ => show win0_2.index t (0 : Fin 2) * 128 + 1 * q.val = q.val; rw [e20]; omega
    | ⟨1, _⟩ => show win0_2.index t (1 : Fin 2) * 128 + 1 * k.val = k.val; rw [e21]; omega
  · intro k
    show V c main_arg4 (((cfg0.win 3).blk t).view.emb (ix2 q k)) = V c main_arg4 (ix2 q k)
    refine congrArg (V c main_arg4) (funext fun a => Fin.ext ?_)
    match a with
    | ⟨0, _⟩ => show win0_3.index t (0 : Fin 2) * 128 + 1 * q.val = q.val; rw [e30]; omega
    | ⟨1, _⟩ => show win0_3.index t (1 : Fin 2) * 128 + 1 * k.val = k.val; rw [e31]; omega
  · show V c main_arg3 (((cfg0.win 4).blk t).view.emb (ix1 q)) = V c main_arg3 (ix1 q)
    refine congrArg (V c main_arg3) (funext fun a => Fin.ext ?_)
    match a with
    | ⟨0, _⟩ => show win0_4.index t (0 : Fin 1) * 128 + 1 * q.val = q.val; rw [e40]; omega

/-- An index of the 50000 × 128 output is in point `t`'s block iff each coordinate is in the block's range on its
    axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v23).slice (win0_5.rect t)).set ↔ _
  rw [View.set_slice_whole, Rect.mem_set_unit]
  exact Iff.rfl

/-- The ten blocks cover the output: row `r` is in the block of point `r / 5000`, which writes back. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 5000 < grid0.N := by rw [N_0]; omega
  obtain ⟨t, ht⟩ : ∃ t : Fin cfg0.N, t.val = (i 0).val / 5000 := ⟨⟨(i 0).val / 5000, hlt⟩, rfl⟩
  obtain ⟨-, -, -, -, -, -, -, -, -, e50, e51⟩ := idx0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 128 ≤ (i 1).val ∧ (i 1).val < win0_5.index t (1 : Fin 2) * 128 + 128
    rw [e51]; omega

end Cert.KernelIdeal.KLayer
end
-- ==== Proof.KLayer1.lean ====
/-
  The second pallas_call region, block by block. The region walks the 50000 rows in ten blocks of 5000. At point `t`
  the body sees rows `5000 t … 5000 t + 4999` of the second aggregate and of the first layer's output and the whole weights and bias,
  and stores, at `(p, q)` of its block, `Sage.cell` of row `p` of the two blocks, row `q` of the weights and entry `q`
  of the bias: entry `(5000 t + p, q)` of `Sage.layer` of the arrays the region found. Every point writes its block
  back, and the ten blocks cover the output (row `r` lies in block `r / 5000`).
-/
import proofs.«158803_j83803401879709_1_alg».proof.Proof.Gen.KernelIdeal.Frame
import proofs.«158803_j83803401879709_1_alg».proof.Proof.Spec
import Idealize.ShloMosaic.Lib.Pipeline.Value
import proofs.«158803_j83803401879709_1_alg».proof.Proof.KLayerPay
noncomputable section
namespace Cert.KernelIdeal.KLayer
open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## second layer's region -/

/-- The printed index maps of the second region, decided once over its ten points: the two row-blocked inputs and
    the output sit at block `t` along the rows and block 0 along the features; the weights and the bias are whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is rows `5000 t … 5000 t + 4999` of the layer of the arrays the region finds: the
    stored value at `(p, q)` of the block is the layer's entry `(5000 t + p, q)`, because each row-blocked input's
    block holds rows `5000 t + p` of its array and the weights' and the bias's blocks are the arrays themselves. -/
theorem flushed1_eq (c : Dev nD) (t : Fin cfg1.N) :
    (dat1 (F := Ideal) V c).flushed 5 t
      = ((cfg1.win 5).blk t).view.read (Elt Ideal)
          (Sage.layer (V c main_v42) (V c main_v23) (V c main_arg5) (V c main_arg7) (V c main_arg6)) := by
  show (cfg1.win 5).cut (grid1.coords t) ((dat1 (F := Ideal) V c).after 5 t) = _
  rw [after1_5]
  unfold out1_5
  rw [View.canon_unit_zero zero2]
  simp only [View.ld_unit_zero (S := S5000x128) zero2, View.ld_unit_zero (S := S128x128) zero2,
    View.ld_unit_zero (S := S128) zero1]
  obtain ⟨e00, e01, e10, e11, e20, e21, e30, e31, e40, e50, e51⟩ := idx1 t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  show k1_pay1 (F := Ideal) (iblk1 V c 0 t) (iblk1 V c 1 t) (iblk1 V c 2 t) (iblk1 V c 3 t) (iblk1 V c 4 t) (ix2 p q)
      = Sage.layer (V c main_v42) (V c main_v23) (V c main_arg5) (V c main_arg7) (V c main_arg6)
          (((cfg1.win 5).blk t).view.emb (ix2 p q))
  have hemb : ((cfg1.win 5).blk t).view.emb (ix2 p q) = ix2 (⟨t.val * 5000 + p.val, hr⟩ : Fin 50000) q := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 128 + 1 * q.val = q.val; rw [e51]; omega
  refine (k1_pay1_layer (V c main_v42) (V c main_v23) (V c main_arg5) (V c main_arg7) (V c main_arg6)
    (iblk1 V c 0 t) (iblk1 V c 1 t) (iblk1 V c 2 t) (iblk1 V c 3 t) (iblk1 V c 4 t)
    (⟨t.val * 5000 + p.val, hr⟩ : Fin 50000) p q ?_ ?_ ?_ ?_ ?_).trans
    (congrArg (Sage.layer (V c main_v42) (V c main_v23) (V c main_arg5) (V c main_arg7) (V c main_arg6)) hemb.symm)
  · intro k
    show V c main_v42 (((cfg1.win 0).blk t).view.emb (ix2 p k)) = V c main_v42 (ix2 (⟨t.val * 5000 + p.val, hr⟩ : Fin 50000) k)
    refine congrArg (V c main_v42) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · intro k
    show V c main_v23 (((cfg1.win 1).blk t).view.emb (ix2 p k)) = V c main_v23 (ix2 (⟨t.val * 5000 + p.val, hr⟩ : Fin 50000) k)
    refine congrArg (V c main_v23) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  · intro k
    show V c main_arg5 (((cfg1.win 2).blk t).view.emb (ix2 q k)) = V c main_arg5 (ix2 q k)
    refine congrArg (V c main_arg5) (funext fun a => Fin.ext ?_)
    match a with
    | ⟨0, _⟩ => show win1_2.index t (0 : Fin 2) * 128 + 1 * q.val = q.val; rw [e20]; omega
    | ⟨1, _⟩ => show win1_2.index t (1 : Fin 2) * 128 + 1 * k.val = k.val; rw [e21]; omega
  · intro k
    show V c main_arg7 (((cfg1.win 3).blk t).view.emb (ix2 q k)) = V c main_arg7 (ix2 q k)
    refine congrArg (V c main_arg7) (funext fun a => Fin.ext ?_)
    match a with
    | ⟨0, _⟩ => show win1_3.index t (0 : Fin 2) * 128 + 1 * q.val = q.val; rw [e30]; omega
    | ⟨1, _⟩ => show win1_3.index t (1 : Fin 2) * 128 + 1 * k.val = k.val; rw [e31]; omega
  · show V c main_arg6 (((cfg1.win 4).blk t).view.emb (ix1 q)) = V c main_arg6 (ix1 q)
    refine congrArg (V c main_arg6) (funext fun a => Fin.ext ?_)
    match a with
    | ⟨0, _⟩ => show win1_4.index t (0 : Fin 1) * 128 + 1 * q.val = q.val; rw [e40]; omega

/-- An index of the 50000 × 128 output is in point `t`'s block iff each coordinate is in the block's range on its
    axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v43).slice (win1_5.rect t)).set ↔ _
  rw [View.set_slice_whole, Rect.mem_set_unit]
  exact Iff.rfl

/-- The ten blocks cover the output: row `r` is in the block of point `r / 5000`, which writes back. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 5000 < grid1.N := by rw [N_1]; omega
  obtain ⟨t, ht⟩ : ∃ t : Fin cfg1.N, t.val = (i 0).val / 5000 := ⟨⟨(i 0).val / 5000, hlt⟩, rfl⟩
  obtain ⟨-, -, -, -, -, -, -, -, -, e50, e51⟩ := idx1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e50, ht]; omega
  | ⟨1, _⟩ =>
    show win1_5.index t (1 : Fin 2) * 128 ≤ (i 1).val ∧ (i 1).val < win1_5.index t (1 : Fin 2) * 128 + 128
    rw [e51]; omega

end Cert.KernelIdeal.KLayer
end
-- ==== Proof.KLayer.lean ====
/-
  Each of the kernel's two pallas_call regions, read as ONE function of the arrays it finds: after its ten grid points
  the region's output array holds `Sage.layer` of the aggregate, the node features, the two weights and the bias.
  Every point writes back its block of that one function and the blocks cover the array (the two sibling modules, one
  per region); an array overwritten block by block with blocks of one function ends holding that function.
-/
import proofs.«158803_j83803401879709_1_alg».proof.Proof.Gen.KernelIdeal.Frame
import proofs.«158803_j83803401879709_1_alg».proof.Proof.Spec
import Idealize.ShloMosaic.Lib.Pipeline.Value
import proofs.«158803_j83803401879709_1_alg».proof.Proof.KLayer0
import proofs.«158803_j83803401879709_1_alg».proof.Proof.KLayer1
noncomputable section
namespace Cert.KernelIdeal.KLayer
open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- After its ten points the first region's output array is the layer of the aggregate, the features, the two weights
    and the bias it found. -/
theorem arr0 (c : Dev nD) :
    (dat0 (F := Ideal) V c).arrAt 5 cfg0.N
      = Sage.layer (V c main_v22) (V c main_arg0) (V c main_arg2) (V c main_arg4) (V c main_arg3) :=
  (dat0 (F := Ideal) V c).arrAt_eq_of_cover 5
    (Sage.layer (V c main_v22) (V c main_arg0) (V c main_arg2) (V c main_arg4) (V c main_arg3))
    (fun t _ => flushed0_eq V c t) cover0

/-- The second region likewise, on the second layer's aggregate, the first layer's output, and the second layer's
    weights and bias. -/
theorem arr1 (c : Dev nD) :
    (dat1 (F := Ideal) V c).arrAt 5 cfg1.N
      = Sage.layer (V c main_v42) (V c main_v23) (V c main_arg5) (V c main_arg7) (V c main_arg6) :=
  (dat1 (F := Ideal) V c).arrAt_eq_of_cover 5
    (Sage.layer (V c main_v42) (V c main_v23) (V c main_arg5) (V c main_arg7) (V c main_arg6))
    (fun t _ => flushed1_eq V c t) cover1

end Cert.KernelIdeal.KLayer
end
-- ==== Proof.KResult.lean ====
/-
  The idealized kernel program's result as ONE function of its arguments.

  The result buffer is the second pallas_call's output array; that array is `Sage.layer` of what the call finds in
  its windows' arrays; what it finds is the first pallas_call's output array (itself `Sage.layer` of what THAT call
  finds), the aggregate of it, and arguments no segment has written. Substituting gives two layers of the arguments.
-/
import proofs.«158803_j83803401879709_1_alg».proof.Proof.KFold
import proofs.«158803_j83803401879709_1_alg».proof.Proof.KRun
import proofs.«158803_j83803401879709_1_alg».proof.Proof.Spec
import proofs.«158803_j83803401879709_1_alg».proof.Proof.KLayer

noncomputable section

namespace Cert.KernelIdeal.KValue

open Cert.KernelIdeal Cert.KernelIdeal.Gen Idealize.ShloMosaic Idealize.ShloMosaic.TcCoe Idealize.SL.Sem

/-- Two GraphSAGE layers of the arguments: each layer `Sage.layer` of the aggregate of its input over the edge
    list, of its input, and of its own weights and bias. -/
def twoLayers (x : (⟨S50000x128, .f32⟩ : BufTy).Contents (Elt Ideal)) (e : (⟨S2x800000, .i32⟩ : BufTy).Contents (Elt Ideal))
    (w1l : (⟨S128x128, .f32⟩ : BufTy).Contents (Elt Ideal)) (b1 : (⟨S128, .f32⟩ : BufTy).Contents (Elt Ideal))
    (w1r w2l : (⟨S128x128, .f32⟩ : BufTy).Contents (Elt Ideal)) (b2 : (⟨S128, .f32⟩ : BufTy).Contents (Elt Ideal))
    (w2r : (⟨S128x128, .f32⟩ : BufTy).Contents (Elt Ideal)) : (⟨S50000x128, .f32⟩ : BufTy).Contents (Elt Ideal) :=
  Sage.layer (agg (Sage.layer (agg x (src e) (dst e)) x w1l w1r b1) (src e) (dst e))
    (Sage.layer (agg x (src e) (dst e)) x w1l w1r b1) w2l w2r b2

variable (m : (ℓ : Loc nD τ sig) → Buf (Elt Ideal) ℓ) (ρ : Dev nD → PrngReg)

/-- The first pallas_call leaves the first layer of the arguments in its output array. -/
theorem hidden_eq (c : Dev nD) :
    hidden m ρ c = Sage.layer (agg (m ((c : Thread nD τ).loc main_arg0)) (src (m ((c : Thread nD τ).loc main_arg1)))
        (dst (m ((c : Thread nD τ).loc main_arg1))))
      (m ((c : Thread nD τ).loc main_arg0)) (m ((c : Thread nD τ).loc main_arg2)) (m ((c : Thread nD τ).loc main_arg4))
      (m ((c : Thread nD τ).loc main_arg3)) :=
  (Cert.KernelIdeal.KLayer.arr0 (V1 m ρ) c).trans (by rw [V1_v22, V1_arg0, V1_arg2, V1_arg4, V1_arg3])

/-- The result buffer at the last boundary holds the two layers of the arguments: the second pallas_call's output
    array is the layer of what that call finds, which is the first layer's output, its aggregate, and the second
    layer's weights and bias as launched. -/
theorem result_eq (c : Dev nD) :
    W4 m ρ c (Proc.devRef .tc main_v43)
      = twoLayers (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (W4_v43 m ρ c).trans ((Cert.KernelIdeal.KLayer.arr1 (V3 m ρ) c).trans (by
    rw [V3_v42, V3_v23, V3_arg5, V3_arg7, V3_arg6, hidden_eq]
    rfl))

/-- Every weakly fair execution of the idealized kernel program terminates, nothing faulting, with the result at the
    two layers of the arguments and the arguments unchanged. -/
theorem run : θ_run defs (onTc (τ := τ) (main (F := Ideal))) ⟨m, fun _ => 0, ρ⟩ (fun r => ∀ c : Dev nD,
      r.2.mem ((c.tc : Thread nD τ).loc main_v43)
        = twoLayers (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named m ρ)

end Cert.KernelIdeal.KValue

end
-- ==== Proof.RefDefs.lean ====
/-
  The reference program's two building blocks, as functions of abstract operands.

  `agg x s d` is the mean aggregation exactly as the reference's host operations spell it: gather the rows of `x` at
  the (wrapped) source indices `s`, scatter-add them into 50000 buckets at the destination indices `d`, and divide
  each bucket by `max (its in-degree) 1`, the in-degree being a scatter-add of ones. `src` / `dst` cut the two rows
  out of the 2 × 800000 edge list. `refLayer A X Wl b Wr` is one layer as the reference spells it:
  `relu ((A · Wlᵀ + b) + X · Wrᵀ)` with the transposes explicit and `relu` a maximum with a broadcast zero.
  Both layers of the reference are these two functions composed; nothing here is opened again: the aggregation
  is the same chain of operations in both programs and is carried as one function.
-/
import proofs.«158803_j83803401879709_1_alg».proof.Proof.Gen.ReferenceIdeal

noncomputable section

namespace Cert.ReferenceIdeal.RefValue

open Cert.ReferenceIdeal Cert.ReferenceIdeal.Gen Idealize.ShloMosaic

variable {F : FTy → Type} [FloatOps F]

/-- Row 0 of the edge list: the source node of each edge. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destination node of each edge. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Mean aggregation of the rows of `x` over the edges `s → d`: bucket sums divided by `max degree 1`. -/
def agg (x : (⟨S50000x128, .f32⟩ : BufTy).Contents (Elt F)) (s d : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

/-- One layer as the reference spells it: `relu ((A · Wlᵀ + b) + X · Wrᵀ)`. -/
def refLayer (A X : (⟨S50000x128, .f32⟩ : BufTy).Contents (Elt F)) (Wl : (⟨S128x128, .f32⟩ : BufTy).Contents (Elt F))
    (b : (⟨S128, .f32⟩ : BufTy).Contents (Elt F)) (Wr : (⟨S128x128, .f32⟩ : BufTy).Contents (Elt F)) :
    (⟨S50000x128, .f32⟩ : BufTy).Contents (Elt F) :=
  maximumf
    (addf
      (addf
        (Host.dotGeneral dot_S50000x128_S128x128_S50000x128_1_0_0_1_n_n none A
          (transpose S128x128 [1, 0] Wl transposes_S128x128_S128x128_1_0))
        (broadcastInDim S50000x128 ![0, 1] bcast_S1x128_S50000x128_0_1 (broadcastInDim S1x128 ![1] bcast_S128_S1x128_1 b)))
      (Host.dotGeneral dot_S50000x128_S128x128_S50000x128_1_0_0_1_n_n none X
        (transpose S128x128 [1, 0] Wr transposes_S128x128_S128x128_1_0)))
    (broadcastInDim S50000x128 ![] bcast_S_S50000x128 (constant S_ .f32 0x00000000#32))

end Cert.ReferenceIdeal.RefValue

end
-- ==== Proof.RefLayer.lean ====
/-
  The reference side: one layer of the reference program is the specification's layer, and the reference's
  whole result is that layer applied twice over the mean aggregation.

  * `dot_transpose_apply`: the host's contraction of a 50000 × 128 array `l` with the transpose of a 128 × 128
    matrix `w`, read at entry `(r, c)`, is `∑ k, l (r, k) · w (c, k)`: the contraction runs over `l`'s column and the
    transposed matrix's row, and the transposed matrix's entry `(k, c)` is `w (c, k)`.
  * `bias_apply`: a bias vector broadcast first to a 1 × 128 row and then down the 50000 rows reads `b c` at `(r, c)`.
  * `zero_apply`: the broadcast zero literal reads `0` everywhere.
  * `refLayer_eq`: entry by entry, `max (((⟨A r, Wl c⟩ + b c) + ⟨X r, Wr c⟩)) 0` is the specification's cell, by
    regrouping a sum of three extended reals (`Sage.cell_bias_mid`); no finiteness is used.
  * `res_eq`: the reference's stages, composed, are literally `refLayer ∘ agg` twice: both sides unfold to the same
    term, operation by operation, and nothing is evaluated.
-/
import proofs.«158803_j83803401879709_1_alg».proof.Proof.Gen.ReferenceIdeal.Read
import proofs.«158803_j83803401879709_1_alg».proof.Proof.RefDefs
import proofs.«158803_j83803401879709_1_alg».proof.Proof.Spec

noncomputable section
namespace Cert.ReferenceIdeal.RefValue
open Cert.ReferenceIdeal Cert.ReferenceIdeal.Gen Idealize.ShloMosaic Idealize.ShloMosaic.ValueIdx

/-- The contraction of `l` with the transpose of `w` at `(r, c)`: `∑ k, l (r, k) · w (c, k)`. -/
theorem dot_transpose_apply (l : FVec Ideal S50000x128 .f32) (w : FVec Ideal S128x128 .f32) (r : Fin 50000) (c : Fin 128) :
    Host.dotGeneral (F := Ideal) dot_S50000x128_S128x128_S50000x128_1_0_0_1_n_n none l
        (transpose S128x128 [1, 0] w transposes_S128x128_S128x128_1_0) (ix2 r c) =
      ∑ k : Fin 128, l (ix2 r k) * w (ix2 c k) := by
  show Cert.ReferenceIdeal.Read.val_main_v29 (F := Ideal) l w (ix2 r c) = _
  rw [Cert.ReferenceIdeal.Read.val_main_v29_apply]
  refine Finset.sum_congr rfl fun k _ => ?_
  rw [Cert.ReferenceIdeal.Read.val_main_v28_apply]
  -- the left operand is read at (r, k); the transposed right operand at (k, c), that is `w` at (c, k)
  have el : Cert.ReferenceIdeal.Read.lidx_main_v29 (ix2 r c) k = ix2 r k :=
    funext fun a => Fin.ext (by match a with | ⟨0, _⟩ => rfl | ⟨1, _⟩ => rfl)
  have er : Cert.ReferenceIdeal.Read.idx_main_v28 (Cert.ReferenceIdeal.Read.ridx_main_v29 (ix2 r c) k) = ix2 c k :=
    funext fun a => Fin.ext (by match a with | ⟨0, _⟩ => rfl | ⟨1, _⟩ => rfl)
  rw [el, er]

/-- The bias, broadcast to a row and then to every row, reads `b c` at `(r, c)`. -/
theorem bias_apply {F : FTy → Type} [FloatOps F] (b : (⟨S128, .f32⟩ : BufTy).Contents (Elt F)) (r : Fin 50000) (c : Fin 128) :
    broadcastInDim S50000x128 ![0, 1] bcast_S1x128_S50000x128_0_1 (broadcastInDim S1x128 ![1] bcast_S128_S1x128_1 b) (ix2 r c) =
      b (ix1 c) := by
  show Cert.ReferenceIdeal.Read.val_main_v26 (F := F) b (ix2 r c) = _
  rw [Cert.ReferenceIdeal.Read.val_main_v26_apply, Cert.ReferenceIdeal.Read.val_main_v25_apply]
  exact congrArg b (funext fun a => Fin.ext (by match a with | ⟨0, _⟩ => rfl))

/-- The broadcast zero literal reads `0` at every entry. -/
theorem zero_apply (r : Fin 50000) (c : Fin 128) :
    broadcastInDim S50000x128 ![] bcast_S_S50000x128 (constant (F := Ideal) S_ .f32 0x00000000#32) (ix2 r c) = (0 : EReal) := by
  show Cert.ReferenceIdeal.Read.val_main_call0_v0 (F := Ideal) (ix2 r c) = _
  rw [Cert.ReferenceIdeal.Read.val_main_call0_v0_apply, Cert.ReferenceIdeal.Read.val_main_call0_cst_apply]
  exact Ideal.ofBits_zero_f32

/-- One layer as the reference spells it is the specification's layer: entry `(r, c)` is
    `max ((⟨A r, Wl c⟩ + b c) + ⟨X r, Wr c⟩) 0`, the specification's cell with the bias added before the second product. -/
theorem refLayer_eq (A X : (⟨S50000x128, .f32⟩ : BufTy).Contents (Elt Ideal)) (Wl : (⟨S128x128, .f32⟩ : BufTy).Contents (Elt Ideal))
    (b : (⟨S128, .f32⟩ : BufTy).Contents (Elt Ideal)) (Wr : (⟨S128x128, .f32⟩ : BufTy).Contents (Elt Ideal)) :
    refLayer (F := Ideal) A X Wl b Wr = Sage.layer A X Wl Wr b := by
  funext i
  obtain ⟨r, c, rfl⟩ : ∃ (r : Fin 50000) (c : Fin 128), i = ix2 r c := ⟨i 0, i 1, eq_ix2 i⟩
  rw [Sage.layer_apply, ← Sage.cell_bias_mid]
  unfold refLayer
  rw [maximumf_apply, addf_apply, addf_apply, dot_transpose_apply, dot_transpose_apply, bias_apply, zero_apply]

/-- The reference's result, as the composition of its operations' stages, is `refLayer` of the aggregate of the first
    `refLayer`, of that first layer itself, and of the second layer's weights and bias: the two sides are the same
    operations in the same order. -/
theorem res_eq {F : FTy → Type} [FloatOps F] (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 x5 : (⟨S128x128, .f32⟩ : BufTy).Contents (Elt F)) (x6 : (⟨S128, .f32⟩ : BufTy).Contents (Elt F))
    (x7 : (⟨S128x128, .f32⟩ : BufTy).Contents (Elt F)) :
    Cert.ReferenceIdeal.Read.val_main_v59 (F := F) x0 x1 x2 x3 x4 x5 x6 x7 =
      refLayer (agg (refLayer (agg x0 (src x1) (dst x1)) x0 x2 x3 x4) (src x1) (dst x1))
        (refLayer (agg x0 (src x1) (dst x1)) x0 x2 x3 x4) x5 x6 x7 := by
  rfl

end Cert.ReferenceIdeal.RefValue
end
-- ==== Proof.lean ====
/-
  Two-layer GraphSAGE with mean aggregation: the Pallas program against its jnp reference, on the extended reals.

  Both programs compute, per layer, the mean over in-neighbours of the node features on the host — gather by source
  index, scatter-add by destination index, divide by `max degree 1`: the same chain of operations in both, carried as
  ONE function `agg` and never opened — and then the dense part `relu (A · Wlᵀ + X · Wrᵀ + b)`. The Pallas program
  computes the dense part of each layer in a pallas_call over ten blocks of 5000 nodes, the whole contracted axis in
  every block, the weights and the bias resident: block `t` of its output is the layer's function of rows
  `5000 t … 5000 t + 4999` of the two inputs, so the ten blocks make up `Sage.layer` of the whole arrays
  (Proof/KLayer.lean). The reference spells the same layer as `relu ((A · Wlᵀ + b) + X · Wrᵀ)` with two host
  `dot_general`s on explicitly transposed weights (Proof/RefLayer.lean); the two spellings differ by the order in
  which three extended reals are added, and addition of extended reals is commutative and associative also at the
  infinities, so the precondition (finite inputs) is never opened: out-of-range edge indices, infinite bucket
  sums and whatever the aggregation makes of them are the same on both sides.

  The kernel program's result is read through its four segments (host stretch, pallas_call, host stretch,
  pallas_call: Proof/KRun.lean, Proof/KFold.lean, Proof/KResult.lean); the reference's through its generated run.
  The rounding to bf16 on the way into the matrix unit is the identity at `Ideal`, and the ideal pass rewrote
  nothing: `preserves` is `True`.
-/
import proofs.«158803_j83803401879709_1_alg».proof.Defs
import proofs.«158803_j83803401879709_1_alg».proof.Proof.Gen.Kernel
import proofs.«158803_j83803401879709_1_alg».proof.Proof.Gen.Kernel.Frame
import proofs.«158803_j83803401879709_1_alg».proof.Proof.Gen.KernelIdeal
import proofs.«158803_j83803401879709_1_alg».proof.Proof.Gen.KernelIdeal.Frame
import proofs.«158803_j83803401879709_1_alg».proof.Proof.Gen.ReferenceIdeal
import proofs.«158803_j83803401879709_1_alg».proof.Proof.Gen.ReferenceIdeal.Read
import proofs.«158803_j83803401879709_1_alg».proof.Proof.Gen.Pre_finite_inputs
import proofs.«158803_j83803401879709_1_alg».proof.Proof.KResult
import proofs.«158803_j83803401879709_1_alg».proof.Proof.RefLayer
import Idealize.ShloMosaic.Adequacy
import Idealize.ShloMosaic.Init

noncomputable section

namespace Cert.Proof

open Idealize.ShloMosaic Idealize.SL.Sem

/-! ## The frames, and the idealization's ledger -/

theorem frame_k : Cert.frame_Kernel := fun m ρ _ => Cert.Kernel.Gen.frame m ρ
theorem frame_ki : Cert.frame_KernelIdeal := fun m ρ _ => Cert.KernelIdeal.Gen.frame m ρ
/-- The reference has no pallas_call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-! ## The two programs aggregate by the same chain of host operations -/

theorem src_same (e : (⟨Cert.KernelIdeal.S2x800000, .i32⟩ : BufTy).Contents (Elt Ideal)) :
    Cert.KernelIdeal.KValue.src (F := Ideal) e = Cert.ReferenceIdeal.RefValue.src (F := Ideal) e := rfl
theorem dst_same (e : (⟨Cert.KernelIdeal.S2x800000, .i32⟩ : BufTy).Contents (Elt Ideal)) :
    Cert.KernelIdeal.KValue.dst (F := Ideal) e = Cert.ReferenceIdeal.RefValue.dst (F := Ideal) e := rfl
theorem agg_same (x : (⟨Cert.KernelIdeal.S50000x128, .f32⟩ : BufTy).Contents (Elt Ideal))
    (s d : (⟨Cert.KernelIdeal.S800000, .i32⟩ : BufTy).Contents (Elt Ideal)) :
    Cert.KernelIdeal.KValue.agg (F := Ideal) x s d = Cert.ReferenceIdeal.RefValue.agg (F := Ideal) x s d := rfl

/-! ## The value claim -/

/-- At `Ideal` both programs end with two GraphSAGE layers of the arguments in their result: the kernel program by
    its run read through its segments (`KValue.run`), the reference by its run read as `refLayer ∘ agg` twice
    (`res_eq`), each `refLayer` being `Sage.layer` (`refLayer_eq`: the bias added before or after the second product
    is the same extended real), on arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefValue.res_eq,
    Cert.ReferenceIdeal.RefValue.refLayer_eq, Cert.ReferenceIdeal.RefValue.refLayer_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  unfold Cert.KernelIdeal.KValue.twoLayers
  rw [agg_same, agg_same, src_same, dst_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
